-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_arg5 : FVec F S1600000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128x128 .f32) (main_arg3 : FVec F S128 .f32) (main_arg4 : FVec F S1600000 .f32) (main_arg5 : FVec F S1600000 .f32) (main_arg6 : IVec S1600000 32) (main_arg7 : IVec S1600000 32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S128x256 : Shape := ⟨2, ![128, 256]⟩
abbrev S100000x256 : Shape := ⟨2, ![100000, 256]⟩
abbrev S10000x128 : Shape := ⟨2, ![10000, 128]⟩
abbrev S10000x256 : Shape := ⟨2, ![10000, 256]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 48
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S128x256, .f32⟩
  | .hbm, ⟨11, _⟩ => ⟨S100000x256, .f32⟩
  | .hbm, ⟨12, _⟩ => ⟨S100000x128, .f32⟩
  | .hbm, ⟨13, _⟩ => ⟨S100000x128, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S10000x256, .f32⟩
  | .local _ .vmem, ⟨4, _⟩ => ⟨S10000x256, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S128x128_S128x128_S128x256_d1 : Shape.Concatenates [S128x128, S128x128] S128x256 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  slices_S100000x256_S100000x128_0_0 : S100000x256.Slices ![0, 0] S100000x128
  slices_S100000x256_S100000x128_0_128 : S100000x256.Slices ![0, 128] S100000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x256_S10000x256_1_0_0_1_n_n_wf : DotDims.WF S10000x128 S128x256 S10000x256 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S100000x256.size a
  hwx0_2 : ∀ i : grid0.Coords, EltTy.bits .f32 = 32 ∨ (Rect.block (s := S100000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«136742_j86517821211632_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Dense.lean ====
/-
  The first tiled region's output as one function of the arrays it finds. The region walks ten consecutive bands of
  10000 rows. At band t it loads rows 10000·t … 10000·t + 9999 of the left matrix and the whole right matrix, narrows
  both, multiplies them into zeros on the matrix unit, and writes the product back as the same band of rows of the output.
  Over the extended reals narrowing is the identity, so the band written is that band of rows of the exact product, and
  the ten bands cover every row: the output array ends as the product of the two arrays.
-/
import proofs.«136742_j86517821211632_1_alg».proof.Proof.Gen.KernelIdeal.Frame
import proofs.«136742_j86517821211632_1_alg».proof.Proof.LibMatProd
import Idealize.ShloMosaic.Lib.Pipeline.Value
import Idealize.ShloMosaic.PureOps.Ideal

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)
open Cert.LibMatProd

theorem origin : (![0, 0] : Fin 2 → Nat) = fun _ => 0 := funext fun a => by fin_cases a <;> rfl

/-- One band's product: when the left block holds rows r … r + 9999 of X and the right block is W, the body's value at
    y is the product X·W at the index r rows further down. -/
theorem band_product (X : FVec Ideal ⟨2, ![100000, 128]⟩ .f32) (W : FVec Ideal ⟨2, ![128, 256]⟩ .f32)
    (x0 : Vec Ideal S10000x128 .f32) (x1 : Vec Ideal S128x256 .f32) (r : ℕ)
    (hx : ∀ (p : Fin 10000) (k : Fin 128) (hp : r + p.val < 100000), x0 (ix2 p k) = X (ix2 ⟨r + p.val, hp⟩ k))
    (hw : ∀ z, x1 z = W z)
    (y : S10000x256.Idx) (i : S100000x256.Idx) (hi0 : (i 0).val = r + (y 0).val) (hi1 : (i 1).val = (y 1).val) :
    k0_pay1 (F := Ideal) x0 x1 y = matProd X W i := by
  unfold k0_pay1
  rw [shapeCast_self]
  rw [matmul_eq (M := 10000) (K := 128) (N := 256) dot_S10000x128_S128x256_S10000x256_1_0_0_1_n_n rfl rfl rfl rfl rfl rfl x0 x1 bitsLt_bf16_f32]
  exact matProd_rows X W x0 x1 r hx hw y i hi0 hi1

/-- The printed index maps over the ten bands: the left input and the output sit at band t, the right input at the origin. -/
theorem bands : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What band t writes back is band t of the product of the two arrays as the region finds them. -/
theorem flushed_band (c : Dev nD) (t : Fin cfg0.N) :
    (dat0 V c).flushed 2 t = ((cfg0.win 2).blk t).view.read (Elt Ideal) (matProd (V c main_arg0) (V c main_v0)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x256) origin]
  obtain ⟨e0, e1, e2, e3, e4, e5⟩ := bands t
  funext y
  refine band_product (V c main_arg0) (V c main_v0) (iblk0 V c 0 t) (iblk0 V c 1 t) (t.val * 10000) ?_ ?_ y _ ?_ ?_
  · intro p k hp
    show V c main_arg0 (((cfg0.win 0).blk t).view.emb (ix2 p k)) = V c main_arg0 (ix2 ⟨t.val * 10000 + p.val, hp⟩ k)
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro z
    show V c main_v0 (((cfg0.win 1).blk t).view.emb z) = V c main_v0 z
    refine congrArg (V c main_v0) (funext fun a => Fin.ext ?_)
    match a with
    | ⟨0, _⟩ => show win0_1.index t (0 : Fin 2) * 128 + 1 * (z 0).val = (z 0).val; omega
    | ⟨1, _⟩ => show win0_1.index t (1 : Fin 2) * 256 + 1 * (z 1).val = (z 1).val; omega
  · show win0_2.index t (0 : Fin 2) * 10000 + 1 * (y 0).val = t.val * 10000 + (y 0).val; omega
  · show win0_2.index t (1 : Fin 2) * 256 + 1 * (y 1).val = (y 1).val; omega

/-- An index of the output is in band t's block iff each coordinate is in the block's range on its axis. -/
theorem mem_band (t : Fin cfg0.N) (i : S100000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v1).slice (win0_2.rect t)).set ↔ _
  rw [View.set_slice_whole, Rect.mem_set_unit]
  exact Iff.rfl

/-- Every index of the output lies in the band its row falls in. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 10 := N_0
  let t : Fin cfg0.N := ⟨(i 0).val / 10000, by rw [hN]; omega⟩
  obtain ⟨e0, e1, e2, e3, e4, e5⟩ := bands t
  have ht : t.val = (i 0).val / 10000 := rfl
  refine ⟨t, flush0_2 t, ?_⟩
  rw [mem_band]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- The output array after the region: the product of the two arrays the region found. -/
theorem product (c : Dev nD) :
    (dat0 V c).arrAt 2 cfg0.N = matProd (V c main_arg0) (V c main_v0) :=
  (dat0 V c).arrAt_eq_of_cover 2 (matProd (V c main_arg0) (V c main_v0)) (fun t _ => flushed_band V c t) covered

end Cert.KernelIdeal.Dense

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«136742_j86517821211632_1_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibGcnLayout.lean ====
/-
  Small pieces of a graph-convolution network over the extended reals, each as a function of whole arrays, with the
  spellings a vector unit and a host give them. A vector laid out as one column or as one row (by a re-lay or by a
  broadcast: the same function). A matrix plus a one-row vector repeated down the rows. Two matrices joined side by
  side along the columns, and four; the product of a matrix with two matrices joined side by side is the two products
  joined side by side, because the column an entry sits in does not depend on the summation index.
-/
import proofs.«136742_j86517821211632_1_alg».proof.Proof.LibMatProd
import proofs.«136742_j86517821211632_1_alg».proof.Proof.LibRowScale
import proofs.«136742_j86517821211632_1_alg».proof.Proof.LibBiasRelu

noncomputable section

namespace Cert.LibGcnLayout

open Idealize.ShloMosaic Idealize.ShloMosaic.ValueIdx Cert.LibPlainDot Cert.LibMatProd Cert.LibRowScale Cert.LibBiasRelu

/-- A vector as a one-column matrix: entry (i, 0) is v i. -/
def col {a : ℕ} {α : Type} (v : (⟨1, ![a]⟩ : Shape).Idx → α) : (⟨2, ![a, 1]⟩ : Shape).Idx → α :=
  fun j => v (ix1 (n := a) (j 0))

/-- A vector as a one-row matrix: entry (0, i) is v i. -/
def row {a : ℕ} {α : Type} (v : (⟨1, ![a]⟩ : Shape).Idx → α) : (⟨2, ![1, a]⟩ : Shape).Idx → α :=
  fun j => v (ix1 (n := a) (j 1))

theorem col_apply {a : ℕ} {α : Type} (v : (⟨1, ![a]⟩ : Shape).Idx → α) (i : Fin a) (u : Fin 1) : col v (ix2 i u) = v (ix1 i) := rfl
theorem row_apply {a : ℕ} {α : Type} (v : (⟨1, ![a]⟩ : Shape).Idx → α) (u : Fin 1) (i : Fin a) : row v (ix2 u i) = v (ix1 i) := rfl

/-- A vector broadcast into one column is the column. -/
theorem bcast_col {a : ℕ} {α : Type} (v : (⟨1, ![a]⟩ : Shape).Idx → α)
    (hb : (⟨1, ![a]⟩ : Shape).BroadcastsInDim ⟨2, ![a, 1]⟩ ![0]) :
    broadcastInDim ⟨2, ![a, 1]⟩ ![0] hb v = col v := by
  funext j
  obtain ⟨i, u, rfl⟩ : ∃ (i : Fin a) (u : Fin 1), j = ix2 i u := ⟨j 0, j 1, eq_ix2 j⟩
  rw [col_apply]
  exact broadcastInDim_apply _ hb v _ (ix1 i) (fun ax => match ax with
    | ⟨0, _⟩ => by
      show i.val = if a = 1 then 0 else i.val
      split
      · have := i.isLt; omega
      · rfl)

/-- A vector re-laid as one column is the column. -/
theorem cast_col {a : ℕ} {α : Type} (v : (⟨1, ![a]⟩ : Shape).Idx → α) (hc : (⟨1, ![a]⟩ : Shape).ShapeCasts ⟨2, ![a, 1]⟩) :
    shapeCast ⟨2, ![a, 1]⟩ v hc = col v := by
  funext j
  obtain ⟨i, u, rfl⟩ : ∃ (i : Fin a) (u : Fin 1), j = ix2 i u := ⟨j 0, j 1, eq_ix2 j⟩
  rw [col_apply]
  exact shapeCast_apply v hc _ _ (by
    have hu : u.val = 0 := by omega
    rw [Shape.rowMajor_val_two, Shape.rowMajor_val_one]
    show i.val = i.val * 1 + u.val
    rw [hu, Nat.mul_one, Nat.add_zero])

/-- A vector broadcast into one row is the row. -/
theorem bcast_row {a : ℕ} {α : Type} (v : (⟨1, ![a]⟩ : Shape).Idx → α)
    (hb : (⟨1, ![a]⟩ : Shape).BroadcastsInDim ⟨2, ![1, a]⟩ ![1]) :
    broadcastInDim ⟨2, ![1, a]⟩ ![1] hb v = row v := by
  funext j
  obtain ⟨u, i, rfl⟩ : ∃ (u : Fin 1) (i : Fin a), j = ix2 u i := ⟨j 0, j 1, eq_ix2 j⟩
  rw [row_apply]
  exact broadcastInDim_apply _ hb v _ (ix1 i) (fun ax => match ax with
    | ⟨0, _⟩ => by
      show i.val = if a = 1 then 0 else i.val
      split
      · have := i.isLt; omega
      · rfl)

/-- A vector re-laid as one row is the row. -/
theorem cast_row {a : ℕ} {α : Type} (v : (⟨1, ![a]⟩ : Shape).Idx → α) (hc : (⟨1, ![a]⟩ : Shape).ShapeCasts ⟨2, ![1, a]⟩) :
    shapeCast ⟨2, ![1, a]⟩ v hc = row v := by
  funext j
  obtain ⟨u, i, rfl⟩ : ∃ (u : Fin 1) (i : Fin a), j = ix2 u i := ⟨j 0, j 1, eq_ix2 j⟩
  rw [row_apply]
  exact shapeCast_apply v hc _ _ (by
    have hu : u.val = 0 := by omega
    rw [Shape.rowMajor_val_two, Shape.rowMajor_val_one]
    show i.val = u.val * a + i.val
    rw [hu, Nat.zero_mul, Nat.zero_add])

/-- Entry (p, q) of a matrix plus a one-row vector repeated down the rows: a (p, q) + b (0, q). -/
def rowBias {M N : ℕ} (a : FVec Ideal ⟨2, ![M, N]⟩ .f32) (b : FVec Ideal ⟨2, ![1, N]⟩ .f32) : FVec Ideal ⟨2, ![M, N]⟩ .f32 :=
  fun i => a i + b (ix2 (n0 := 1) (n1 := N) (0 : Fin 1) (i 1))

theorem rowBias_apply {M N : ℕ} (a : FVec Ideal ⟨2, ![M, N]⟩ .f32) (b : FVec Ideal ⟨2, ![1, N]⟩ .f32) (p : Fin M) (q : Fin N) :
    rowBias a b (ix2 p q) = a (ix2 p q) + b (ix2 (0 : Fin 1) q) := rfl

/-- The host's spelling: the row broadcast down the rows, added. -/
theorem rowBias_host {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1]) :
    addf a (broadcastInDim ⟨2, ![M, N]⟩ ![0, 1] hbc b) = rowBias a b := by
  funext j
  obtain ⟨p, q, rfl⟩ : ∃ (p : Fin M) (q : Fin N), j = ix2 p q := ⟨j 0, j 1, eq_ix2 j⟩
  rw [addf_apply, bcast_1b_ab_apply, rowBias_apply]

/-- The vector unit's spelling: the row through an identity re-lay, repeated down the rows, added. -/
theorem rowBias_vector {M N : ℕ} (a : FVec Ideal ⟨2, ![M, N]⟩ .f32) (b : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ b h2) hb) = rowBias a b := by
  funext j
  obtain ⟨p, q, rfl⟩ : ∃ (p : Fin M) (q : Fin N), j = ix2 p q := ⟨j 0, j 1, eq_ix2 j⟩
  rw [shapeCast_self, addf_apply, broadcastTo_1b_ab_apply, rowBias_apply]

/-- The vector unit's spelling of a matrix plus a row clamped below at zero, the matrix as it stands. -/
theorem biasRelu_vector {M N : ℕ} (a : FVec Ideal ⟨2, ![M, N]⟩ .f32) (b : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    maximumf (addf a (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, maximumf_apply, addf_apply, broadcastTo_1b_ab_apply, biasRelu_apply]
  rfl

/-- Two matrices of equal height joined side by side: column q is a's column q when q is below a's width, and b's
    column q less a's width otherwise. -/
def catCols {M n1 n2 n : ℕ} (e : n = n1 + n2) (a : FVec Ideal ⟨2, ![M, n1]⟩ .f32) (b : FVec Ideal ⟨2, ![M, n2]⟩ .f32) :
    FVec Ideal ⟨2, ![M, n]⟩ .f32 :=
  fun i => if h : (i 1).val < n1 then a (ix2 (n0 := M) (i 0) ⟨(i 1).val, h⟩)
    else b (ix2 (n0 := M) (i 0) ⟨(i 1).val - n1, by have := idx2_lt1 i; omega⟩)

theorem catCols_left {M n1 n2 n : ℕ} (e : n = n1 + n2) (a : FVec Ideal ⟨2, ![M, n1]⟩ .f32) (b : FVec Ideal ⟨2, ![M, n2]⟩ .f32)
    (p : Fin M) (q : Fin n) (h : q.val < n1) : catCols e a b (ix2 p q) = a (ix2 p ⟨q.val, h⟩) := by
  show (if h : q.val < n1 then _ else _) = _
  rw [dif_pos h]
  rfl

theorem catCols_right {M n1 n2 n : ℕ} (e : n = n1 + n2) (a : FVec Ideal ⟨2, ![M, n1]⟩ .f32) (b : FVec Ideal ⟨2, ![M, n2]⟩ .f32)
    (p : Fin M) (q : Fin n) (h : ¬ q.val < n1) :
    catCols e a b (ix2 p q) = b (ix2 p ⟨q.val - n1, by have := q.isLt; omega⟩) := by
  show (if h : q.val < n1 then _ else _) = _
  rw [dif_neg h]
  rfl

/-- A two-piece concatenation along the columns is the two matrices joined side by side. -/
theorem concat2 {M n1 n2 n : ℕ} (e : n = n1 + n2) (a : FVec Ideal ⟨2, ![M, n1]⟩ .f32) (b : FVec Ideal ⟨2, ![M, n2]⟩ .f32)
    (h : Shape.Concatenates [(⟨2, ![M, n1]⟩ : Shape), ⟨2, ![M, n2]⟩] ⟨2, ![M, n]⟩ 1) :
    concatenate ⟨2, ![M, n]⟩ 1 [⟨⟨2, ![M, n1]⟩, a⟩, ⟨⟨2, ![M, n2]⟩, b⟩] h = catCols e a b := by
  funext j
  obtain ⟨p, q, rfl⟩ : ∃ (p : Fin M) (q : Fin n), j = ix2 p q := ⟨j 0, j 1, eq_ix2 j⟩
  by_cases hq : q.val < n1
  · rw [catCols_left e a b p q hq]
    exact concatenate_pair_apply_left (1 : Fin 2) a b h (ix2 p q) rfl (ix2 p ⟨q.val, hq⟩)
      (fun ax => match ax with | ⟨0, _⟩ => rfl | ⟨1, _⟩ => rfl)
  · rw [catCols_right e a b p q hq]
    refine concatenate_pair_apply_right (1 : Fin 2) a b h (ix2 p q) rfl rfl (ix2 p ⟨q.val - n1, by have := q.isLt; omega⟩)
      (fun ax hax => match ax, hax with | ⟨0, _⟩, _ => rfl | ⟨1, _⟩, hax => absurd rfl hax) ?_
    show q.val - n1 + n1 = q.val
    omega

/-- The product of a matrix with two matrices joined side by side is the two products joined side by side. -/
theorem matProd_catCols {M K n1 n2 n : ℕ} (e : n = n1 + n2) (x : FVec Ideal ⟨2, ![M, K]⟩ .f32)
    (a : FVec Ideal ⟨2, ![K, n1]⟩ .f32) (b : FVec Ideal ⟨2, ![K, n2]⟩ .f32) :
    matProd x (catCols e a b) = catCols e (matProd x a) (matProd x b) := by
  funext j
  obtain ⟨p, q, rfl⟩ : ∃ (p : Fin M) (q : Fin n), j = ix2 p q := ⟨j 0, j 1, eq_ix2 j⟩
  rw [matProd_apply]
  by_cases hq : q.val < n1
  · rw [catCols_left e _ _ p q hq, matProd_apply]
    exact Finset.sum_congr rfl fun k _ => by rw [catCols_left e a b k q hq]
  · rw [catCols_right e _ _ p q hq, matProd_apply]
    exact Finset.sum_congr rfl fun k _ => by rw [catCols_right e a b k q hq]

end Cert.LibGcnLayout

end
-- ==== Proof.Layer.lean ====
/-
  One graph-convolution layer over the extended reals, as one function of whole arrays.

  Nodes carry 128 features. Each of two edge lists gives, per edge, a target row, a source row and a weight. A sparse
  aggregation sends a node-feature matrix x to the matrix whose row r is the sum, over the edges whose target is r, of
  the edge's weight times row (source) of x. It is spelt as the host spells it: the source rows are normalised (a
  negative index counts from the end), gathered, scaled by the weight repeated along the features, and added into a
  zero matrix at the target rows. The text of that spelling is kept closed here: both programs apply it verbatim, so
  only the matrix it is applied to matters.

  The layer is: aggregate the product x·W1 along the first edge list, aggregate x·W2 along the second, add the two, and
  add the bias to every row.
-/
import proofs.«136742_j86517821211632_1_alg».proof.Proof.LibGcnLayout

noncomputable section

namespace Cert.GraphConv

open Idealize.ShloMosaic Idealize.ShloMosaic.ValueIdx Cert.LibMatProd Cert.LibGcnLayout

/-- Node features: 100000 nodes by 128 features. -/
abbrev SNodes : Shape := ⟨2, ![100000, 128]⟩
/-- One entry per edge. -/
abbrev SEdges : Shape := ⟨1, ![1600000]⟩
/-- One entry per edge, as a column. -/
abbrev SEdgeCol : Shape := ⟨2, ![1600000, 1]⟩
/-- One feature row per edge. -/
abbrev SEdgeRows : Shape := ⟨2, ![1600000, 128]⟩
/-- A scalar. -/
abbrev SScalar : Shape := ⟨0, ![]⟩

/-- The sparse aggregation of a node-feature matrix along one edge list (weights, target rows, source rows), in the
    host's spelling: gather the normalised source rows, scale by the weights, add into zeros at the target rows. -/
def aggregate (gd : GatherDims SNodes SEdgeCol SEdgeRows) (sd : ScatterDims SNodes SEdgeCol SEdgeRows)
    (hcol : SEdges.BroadcastsInDim SEdgeCol (![0] : Fin 1 → Fin SEdgeCol.rank))
    (hsplat : SScalar.BroadcastsInDim SEdges (![] : Fin 0 → Fin SEdges.rank))
    (hfeat : SEdgeCol.BroadcastsInDim SEdgeRows (![0, 1] : Fin 2 → Fin SEdgeRows.rank))
    (hzero : SScalar.BroadcastsInDim SNodes (![] : Fin 0 → Fin SNodes.rank))
    (vals : (⟨SEdges, .f32⟩ : BufTy).Contents (Elt Ideal))
    (rows cols : (⟨SEdges, .i32⟩ : BufTy).Contents (Elt Ideal))
    (x : (⟨SNodes, .f32⟩ : BufTy).Contents (Elt Ideal)) : (⟨SNodes, .f32⟩ : BufTy).Contents (Elt Ideal) :=
  Host.scatterAdd (F := Ideal) sd (broadcastInDim SNodes ![] hzero (constant (F := Ideal) SScalar .f32 0x00000000#32))
    (broadcastInDim SEdgeCol ![0] hcol rows)
    (mulf (F := Ideal) (broadcastInDim SEdgeRows ![0, 1] hfeat (broadcastInDim SEdgeCol ![0] hcol vals))
      (Host.gather gd x (broadcastInDim SEdgeCol ![0] hcol
        (select (cmpi .slt cols (broadcastInDim SEdges ![] hsplat (constantI SScalar 32 0#32)))
          (addi cols (broadcastInDim SEdges ![] hsplat (constantI SScalar 32 100000#32))) cols))))

/-- The layer: the two aggregated products added, plus the bias on every row. -/
def layer (gd : GatherDims SNodes SEdgeCol SEdgeRows) (sd : ScatterDims SNodes SEdgeCol SEdgeRows)
    (hcol : SEdges.BroadcastsInDim SEdgeCol (![0] : Fin 1 → Fin SEdgeCol.rank))
    (hsplat : SScalar.BroadcastsInDim SEdges (![] : Fin 0 → Fin SEdges.rank))
    (hfeat : SEdgeCol.BroadcastsInDim SEdgeRows (![0, 1] : Fin 2 → Fin SEdgeRows.rank))
    (hzero : SScalar.BroadcastsInDim SNodes (![] : Fin 0 → Fin SNodes.rank))
    (x : FVec Ideal ⟨2, ![100000, 128]⟩ .f32) (w1 w2 : FVec Ideal ⟨2, ![128, 128]⟩ .f32) (b : FVec Ideal ⟨1, ![128]⟩ .f32)
    (vals0 vals1 : (⟨SEdges, .f32⟩ : BufTy).Contents (Elt Ideal))
    (rows0 cols0 rows1 cols1 : (⟨SEdges, .i32⟩ : BufTy).Contents (Elt Ideal)) : FVec Ideal ⟨2, ![100000, 128]⟩ .f32 :=
  rowBias (addf (aggregate gd sd hcol hsplat hfeat hzero vals0 rows0 cols0 (matProd x w1))
                (aggregate gd sd hcol hsplat hfeat hzero vals1 rows1 cols1 (matProd x w2))) (row b)

end Cert.GraphConv

end
-- ==== Proof.LibJoinCut.lean ====
/-
  Two matrices of equal height joined side by side, cut apart again; and a band of rows of "a matrix plus one row on every
  row". Over the extended reals, for any sizes. Cutting the first n1 columns out of the join gives back the left matrix,
  and cutting the n2 columns from column n1 on gives back the right one. An entry of "a plus b on every row" depends only
  on a at the same index and on b at the same column, so a block that agrees with a at one index, read beside the same
  row b, gives the same entry, wherever its rows sit in the whole matrix.
-/
import proofs.«136742_j86517821211632_1_alg».proof.Proof.LibGcnLayout
import Idealize.ShloMosaic.Lib.ValueLayout

noncomputable section

namespace Cert.LibJoinCut

open Idealize.ShloMosaic Idealize.ShloMosaic.ValueIdx Cert.LibGcnLayout

/-- The first n1 columns of two matrices joined side by side are the left matrix. -/
theorem cut_left {M n1 n2 n : ℕ} (e : n = n1 + n2) (a : FVec Ideal ⟨2, ![M, n1]⟩ .f32) (b : FVec Ideal ⟨2, ![M, n2]⟩ .f32)
    (h : (⟨2, ![M, n]⟩ : Shape).Slices ![0, 0] ⟨2, ![M, n1]⟩) :
    extractStridedSlice ⟨2, ![M, n1]⟩ ![0, 0] (catCols e a b) h = a := by
  funext j
  obtain ⟨p, q, rfl⟩ : ∃ (p : Fin M) (q : Fin n1), j = ix2 p q := ⟨j 0, j 1, eq_ix2 j⟩
  have hq : q.val < n1 := q.isLt
  refine (slice2_axis1_apply (n0 := M) (n1 := n) (m := n1) 0 _ h p q ⟨q.val, by omega⟩ (Nat.zero_add _).symm).trans ?_
  exact catCols_left e a b p ⟨q.val, by omega⟩ hq

/-- The n2 columns from column n1 on of two matrices joined side by side are the right matrix. -/
theorem cut_right {M n1 n2 n : ℕ} (e : n = n1 + n2) (a : FVec Ideal ⟨2, ![M, n1]⟩ .f32) (b : FVec Ideal ⟨2, ![M, n2]⟩ .f32)
    (h : (⟨2, ![M, n]⟩ : Shape).Slices ![0, n1] ⟨2, ![M, n2]⟩) :
    extractStridedSlice ⟨2, ![M, n2]⟩ ![0, n1] (catCols e a b) h = b := by
  funext j
  obtain ⟨p, q, rfl⟩ : ∃ (p : Fin M) (q : Fin n2), j = ix2 p q := ⟨j 0, j 1, eq_ix2 j⟩
  have hq : q.val < n2 := q.isLt
  refine (slice2_axis1_apply (n0 := M) (n1 := n) (m := n2) n1 _ h p q ⟨n1 + q.val, by omega⟩ rfl).trans ?_
  refine (catCols_right e a b p ⟨n1 + q.val, by omega⟩ (show ¬ n1 + q.val < n1 by omega)).trans ?_
  exact congrArg b (congrArg (ix2 p) (Fin.ext (by show n1 + q.val - n1 = q.val; omega)))

/-- One entry of a matrix plus a row on every row, read off a block: when the block a agrees at y with the matrix A at the
    index i, the rows b and B are equal, and i's column is y's, the two sums agree. -/
theorem rowBias_at {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32)
    (y : (⟨2, ![T, N]⟩ : Shape).Idx) (i : (⟨2, ![M, N]⟩ : Shape).Idx)
    (ha : a y = A i) (hb : ∀ z, b z = B z) (hi1 : (i 1).val = (y 1).val) :
    rowBias a b y = rowBias A B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have hq : q' = q := Fin.ext hi1
  subst hq
  rw [rowBias_apply, rowBias_apply, ha, hb]

end Cert.LibJoinCut

end
-- ==== Proof.Stretch.lean ====
/-
  The host operations around the two tiled regions, read as functions of the launch memory.

  Before the first region the two weight matrices are joined side by side into one 128 × 256 matrix; the node features
  are untouched. The first region leaves the features times the joined weights, which is the two products joined side
  by side, so its left 128 columns are features·W1 and its right 128 columns are features·W2. Between the regions each
  half is cut out and sent through the sparse aggregation of its own edge list, and the bias is re-laid as one row. No
  operation before the second region writes an argument, so the edge lists and the bias are read as launched.
-/
import proofs.«136742_j86517821211632_1_alg».proof.Proof.Dense
import proofs.«136742_j86517821211632_1_alg».proof.Proof.Layer
import proofs.«136742_j86517821211632_1_alg».proof.Proof.LibJoinCut
import Idealize.ShloMosaic.Lib.StableHlo.Run
import Idealize.ShloMosaic.Lib.ValueLayout

noncomputable section

namespace Cert.KernelIdeal.Stretch

open Cert.KernelIdeal Cert.KernelIdeal.Gen
open Idealize.ShloMosaic Idealize.ShloMosaic.TcCoe Idealize.ShloMosaic.ValueIdx Idealize.SL.Sem Idealize.ShloMosaic.StableHlo
open Cert.LibMatProd Cert.LibGcnLayout Cert.LibJoinCut Cert.GraphConv

variable (m : (ℓ : Loc nD τ sig) → Buf (Elt Ideal) ℓ) (ρ : Dev nD → PrngReg)

/-! ## What the first region finds -/

/-- The node features enter the first region as launched. -/
theorem entry_features (c : Dev nD) : V1 m ρ c main_arg0 = m ((c : Thread nD τ).loc main_arg0) := by
  show StableHlo.after hostOps0 (W0 m ρ c) (Proc.devRef .tc main_arg0) = _
  after_results

/-- The weights enter the first region joined side by side. -/
theorem entry_weights (c : Dev nD) :
    V1 m ρ c main_v0 = catCols (M := 128) (n1 := 128) (n2 := 128) (n := 256) rfl
      (m ((c : Thread nD τ).loc main_arg1)) (m ((c : Thread nD τ).loc main_arg2)) := by
  show StableHlo.after hostOps0 (W0 m ρ c) (Proc.devRef .tc main_v0) = _
  after_results
  exact concat2 (M := 128) (n1 := 128) (n2 := 128) (n := 256) rfl _ _ concatenates_S128x128_S128x128_S128x256_d1

/-! ## What the first region leaves -/

/-- An argument the first region does not touch is, after it, as launched. -/
theorem kept (c : Dev nD) (b : Ref sig .tc) (hb : ∀ w, Pipeline.arrRef spec0 w ≠ b)
    (hw : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans hw

theorem kept_arg3 (c : Dev nD) : W2 m ρ c (Proc.devRef .tc main_arg3) = m ((c : Thread nD τ).loc main_arg3) :=
  kept m ρ c main_arg3 (by decide) (by after_results)
theorem kept_arg4 (c : Dev nD) : W2 m ρ c (Proc.devRef .tc main_arg4) = m ((c : Thread nD τ).loc main_arg4) :=
  kept m ρ c main_arg4 (by decide) (by after_results)
theorem kept_arg5 (c : Dev nD) : W2 m ρ c (Proc.devRef .tc main_arg5) = m ((c : Thread nD τ).loc main_arg5) :=
  kept m ρ c main_arg5 (by decide) (by after_results)
theorem kept_arg6 (c : Dev nD) : W2 m ρ c (Proc.devRef .tc main_arg6) = m ((c : Thread nD τ).loc main_arg6) :=
  kept m ρ c main_arg6 (by decide) (by after_results)
theorem kept_arg7 (c : Dev nD) : W2 m ρ c (Proc.devRef .tc main_arg7) = m ((c : Thread nD τ).loc main_arg7) :=
  kept m ρ c main_arg7 (by decide) (by after_results)
theorem kept_arg8 (c : Dev nD) : W2 m ρ c (Proc.devRef .tc main_arg8) = m ((c : Thread nD τ).loc main_arg8) :=
  kept m ρ c main_arg8 (by decide) (by after_results)
theorem kept_arg9 (c : Dev nD) : W2 m ρ c (Proc.devRef .tc main_arg9) = m ((c : Thread nD τ).loc main_arg9) :=
  kept m ρ c main_arg9 (by decide) (by after_results)

/-- The first region's output: the features times the two weight matrices, the two products side by side. -/
theorem both_products (c : Dev nD) :
    W2 m ρ c (Proc.devRef .tc main_v1) = catCols (M := 100000) (n1 := 128) (n2 := 128) (n := 256) rfl
      (matProd (m ((c : Thread nD τ).loc main_arg0)) (m ((c : Thread nD τ).loc main_arg1)))
      (matProd (m ((c : Thread nD τ).loc main_arg0)) (m ((c : Thread nD τ).loc main_arg2))) := by
  refine (W2_arr m ρ c 2).trans ((Dense.product (V1 m ρ) c).trans ?_)
  rw [entry_features, entry_weights, matProd_catCols]

/-- The left 128 columns of two matrices joined side by side are the first. -/
theorem left_half (a b : FVec Ideal ⟨2, ![100000, 128]⟩ .f32) :
    extractStridedSlice S100000x128 ![0, 0] (catCols (M := 100000) (n1 := 128) (n2 := 128) (n := 256) rfl a b)
      slices_S100000x256_S100000x128_0_0 = a :=
  cut_left (M := 100000) (n1 := 128) (n2 := 128) (n := 256) rfl a b slices_S100000x256_S100000x128_0_0

/-- The right 128 columns of two matrices joined side by side are the second. -/
theorem right_half (a b : FVec Ideal ⟨2, ![100000, 128]⟩ .f32) :
    extractStridedSlice S100000x128 ![0, 128] (catCols (M := 100000) (n1 := 128) (n2 := 128) (n := 256) rfl a b)
      slices_S100000x256_S100000x128_0_128 = b :=
  cut_right (M := 100000) (n1 := 128) (n2 := 128) (n := 256) rfl a b slices_S100000x256_S100000x128_0_128

/-! ## What the second region finds -/

set_option maxHeartbeats 2000000 in
/-- Its first input: features·W1 aggregated along the first edge list. -/
theorem entry_first (c : Dev nD) :
    V3 m ρ c main_v16 = aggregate gather_S100000x128_S1600000x1_S1600000x128_1_0_n_n_0_1_1128
      scatter_S100000x128_S1600000x1_S1600000x128_1_0_0_1 bcast_S1600000_S1600000x1_0 bcast_S_S1600000
      bcast_S1600000x1_S1600000x128_0_1 bcast_S_S100000x128
      (m ((c : Thread nD τ).loc main_arg4)) (m ((c : Thread nD τ).loc main_arg6)) (m ((c : Thread nD τ).loc main_arg7))
      (matProd (m ((c : Thread nD τ).loc main_arg0)) (m ((c : Thread nD τ).loc main_arg1))) := by
  show StableHlo.after hostOps1 (W2 m ρ c) (Proc.devRef .tc main_v16) = _
  after_results_simp
  rw [kept_arg4, kept_arg6, kept_arg7, both_products, left_half]
  rfl

set_option maxHeartbeats 2000000 in
/-- Its second input: features·W2 aggregated along the second edge list. -/
theorem entry_second (c : Dev nD) :
    V3 m ρ c main_v29 = aggregate gather_S100000x128_S1600000x1_S1600000x128_1_0_n_n_0_1_1128
      scatter_S100000x128_S1600000x1_S1600000x128_1_0_0_1 bcast_S1600000_S1600000x1_0 bcast_S_S1600000
      bcast_S1600000x1_S1600000x128_0_1 bcast_S_S100000x128
      (m ((c : Thread nD τ).loc main_arg5)) (m ((c : Thread nD τ).loc main_arg8)) (m ((c : Thread nD τ).loc main_arg9))
      (matProd (m ((c : Thread nD τ).loc main_arg0)) (m ((c : Thread nD τ).loc main_arg2))) := by
  show StableHlo.after hostOps1 (W2 m ρ c) (Proc.devRef .tc main_v29) = _
  after_results_simp
  rw [kept_arg5, kept_arg8, kept_arg9, both_products, right_half]
  rfl

set_option maxHeartbeats 2000000 in
/-- Its third input: the bias as one row. -/
theorem entry_bias (c : Dev nD) : V3 m ρ c main_v30 = row (m ((c : Thread nD τ).loc main_arg3)) := by
  show StableHlo.after hostOps1 (W2 m ρ c) (Proc.devRef .tc main_v30) = _
  after_results_simp
  rw [kept_arg3]
  exact cast_row (a := 128) _ shapeCasts_S128_S1x128

end Cert.KernelIdeal.Stretch

end
-- ==== Proof.Combine.lean ====
/-
  The second tiled region's output as one function of the arrays it finds. The region walks ten consecutive bands of
  10000 rows. At band t it loads that band of rows of two matrices and the whole one-row bias, adds the two bands entry by
  entry, adds the bias to every row, and writes the sum back as the same band of the output. Each entry written depends
  only on the two matrices at the same array index and on the bias at the same column, so the band written is that band
  of "the two matrices added, plus the bias on every row", and the ten bands cover every row.
-/
import proofs.«136742_j86517821211632_1_alg».proof.Proof.Gen.KernelIdeal.Frame
import proofs.«136742_j86517821211632_1_alg».proof.Proof.LibGcnLayout
import proofs.«136742_j86517821211632_1_alg».proof.Proof.LibJoinCut
import Idealize.ShloMosaic.Lib.Pipeline.Value
import Idealize.ShloMosaic.PureOps.Ideal

set_option maxRecDepth 16384

noncomputable section

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat)
open Cert.LibGcnLayout Cert.LibJoinCut

theorem origin : (![0, 0] : Fin 2 → Nat) = fun _ => 0 := funext fun a => by fin_cases a <;> rfl

/-- One band's sum: when the two blocks agree at y with the matrices A0, A1 at the array index i, and the bias block is
    the bias B, the body's value at y is (A0 + A1 plus B on every row) at i. Only i's column has to be y's. -/
theorem band_sum (A0 A1 : FVec Ideal ⟨2, ![100000, 128]⟩ .f32) (B : FVec Ideal ⟨2, ![1, 128]⟩ .f32)
    (x0 x1 : Vec Ideal S10000x128 .f32) (x2 : Vec Ideal S1x128 .f32)
    (y : S10000x128.Idx) (i : S100000x128.Idx)
    (h0 : x0 y = A0 i) (h1 : x1 y = A1 i) (h2 : ∀ z, x2 z = B z) (hi1 : (i 1).val = (y 1).val) :
    k1_pay1 (F := Ideal) x0 x1 x2 y = rowBias (addf A0 A1) B i := by
  unfold k1_pay1
  rw [rowBias_vector (M := 10000) (N := 128) _ x2 shapeCasts_S1x128_S1x128 broadcasts_S1x128_S10000x128]
  simp only [shapeCast_self]
  exact rowBias_at (M := 100000) (N := 128) (T := 10000) (addf A0 A1) B (addf x0 x1) x2 y i
    (by rw [addf_apply, addf_apply, h0, h1]) h2 hi1

/-- The printed index maps over the ten bands: the two matrices and the output sit at band t, the bias at the origin. -/
theorem bands : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What band t writes back is band t of the two arrays added plus the bias row, as the region finds them. -/
theorem flushed_band (c : Dev nD) (t : Fin cfg1.N) :
    (dat1 V c).flushed 3 t
      = ((cfg1.win 3).blk t).view.read (Elt Ideal) (rowBias (addf (V c main_v16) (V c main_v29)) (V c main_v30)) := by
  show (cfg1.win 3).cut (grid1.coords t) ((dat1 V c).after 3 t) = _
  rw [after1_3]
  unfold out1_3
  rw [View.canon_unit_zero origin]
  simp only [View.ld_unit_zero (S := S10000x128) origin, View.ld_unit_zero (S := S1x128) origin]
  obtain ⟨e0, e1, e2, e3, e4, e5, e6, e7⟩ := bands t
  funext y
  refine band_sum (V c main_v16) (V c main_v29) (V c main_v30) (iblk1 V c 0 t) (iblk1 V c 1 t) (iblk1 V c 2 t) y _ ?_ ?_ ?_ ?_
  · show V c main_v16 (((cfg1.win 0).blk t).view.emb y) = V c main_v16 (((cfg1.win 3).blk t).view.emb y)
    refine congrArg (V c main_v16) (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 128 + 1 * (y 1).val = win1_3.index t (1 : Fin 2) * 128 + 1 * (y 1).val; omega
  · show V c main_v29 (((cfg1.win 1).blk t).view.emb y) = V c main_v29 (((cfg1.win 3).blk t).view.emb y)
    refine congrArg (V c main_v29) (funext fun a => Fin.ext ?_)
    match a with
    | ⟨0, _⟩ => show win1_1.index t (0 : Fin 2) * 10000 + 1 * (y 0).val = win1_3.index t (0 : Fin 2) * 10000 + 1 * (y 0).val; omega
    | ⟨1, _⟩ => show win1_1.index t (1 : Fin 2) * 128 + 1 * (y 1).val = win1_3.index t (1 : Fin 2) * 128 + 1 * (y 1).val; omega
  · intro z
    show V c main_v30 (((cfg1.win 2).blk t).view.emb z) = V c main_v30 z
    refine congrArg (V c main_v30) (funext fun a => Fin.ext ?_)
    match a with
    | ⟨0, _⟩ => show win1_2.index t (0 : Fin 2) * 1 + 1 * (z 0).val = (z 0).val; omega
    | ⟨1, _⟩ => show win1_2.index t (1 : Fin 2) * 128 + 1 * (z 1).val = (z 1).val; omega
  · show win1_3.index t (1 : Fin 2) * 128 + 1 * (y 1).val = (y 1).val; omega

/-- An index of the output is in band t's block iff each coordinate is in the block's range on its axis. -/
theorem mem_band (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v31).slice (win1_3.rect t)).set ↔ _
  rw [View.set_slice_whole, Rect.mem_set_unit]
  exact Iff.rfl

/-- Every index of the output lies in the band its row falls in. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5, e6, e7⟩ := bands t
  have ht : t.val = (i 0).val / 10000 := rfl
  refine ⟨t, flush1_3 t, ?_⟩
  rw [mem_band]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region: the two arrays added, plus the bias row on every row. -/
theorem sum_bias (c : Dev nD) :
    (dat1 V c).arrAt 3 cfg1.N = rowBias (addf (V c main_v16) (V c main_v29)) (V c main_v30) :=
  (dat1 V c).arrAt_eq_of_cover 3 (rowBias (addf (V c main_v16) (V c main_v29)) (V c main_v30)) (fun t _ => flushed_band V c t) covered

end Cert.KernelIdeal.Combine

end
-- ==== Proof.KernelRun.lean ====
/-
  The idealized kernel's run with its result named. The program is four stretches in a row: host operations, a first
  tiled region, host operations, a second tiled region. The buffer contents at the end of each stretch are a fold
  from the launch memory: a host stretch applies its operations, a region replaces its arrays by what its write-backs
  leave and keeps every other buffer. Every weakly fair execution ends with each unscoped buffer at the last fold; read
  at the result buffer, that is the result, and read at an argument it is the argument as launched.
-/
import proofs.«136742_j86517821211632_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last fold's contents and the arguments as
    launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.KernelValue.lean ====
/-
  The idealized kernel's result as the layer function of its arguments. The run ends with the result buffer at what the
  second region's write-backs leave; that is "its two matrix inputs added, plus its row input on every row" of what the
  region found; and what it found is the two aggregated products and the bias as one row, all of the launch memory.
-/
import proofs.«136742_j86517821211632_1_alg».proof.Proof.Stretch
import proofs.«136742_j86517821211632_1_alg».proof.Proof.Combine
import proofs.«136742_j86517821211632_1_alg».proof.Proof.KernelRun

noncomputable section

namespace Cert.KernelIdeal.KernelValue

open Cert.KernelIdeal Cert.KernelIdeal.Gen
open Idealize.ShloMosaic Idealize.ShloMosaic.TcCoe Idealize.SL.Sem
open Cert.LibMatProd Cert.LibGcnLayout Cert.GraphConv

variable (m : (ℓ : Loc nD τ sig) → Buf (Elt Ideal) ℓ) (ρ : Dev nD → PrngReg)

/-- The last fold at the result buffer is the layer function of the launch memory. -/
theorem result (c : Dev nD) :
    W4 m ρ c (Proc.devRef .tc main_v31) = layer gather_S100000x128_S1600000x1_S1600000x128_1_0_n_n_0_1_1128
      scatter_S100000x128_S1600000x1_S1600000x128_1_0_0_1 bcast_S1600000_S1600000x1_0 bcast_S_S1600000
      bcast_S1600000x1_S1600000x128_0_1 bcast_S_S100000x128
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 3).trans ((Combine.sum_bias (V3 m ρ) c).trans ?_)
  rw [Stretch.entry_first, Stretch.entry_second, Stretch.entry_bias]
  rfl

/-- Every weakly fair execution of the idealized kernel terminates with its result at the layer function of the
    arguments as launched, and the arguments unchanged. -/
theorem run : θ_run defs (onTc (τ := τ) (main (F := Ideal))) ⟨m, fun _ => 0, ρ⟩ (fun r => ∀ c : Dev nD,
      r.2.mem ((c.tc : Thread nD τ).loc main_v31) = layer gather_S100000x128_S1600000x1_S1600000x128_1_0_n_n_0_1_1128
          scatter_S100000x128_S1600000x1_S1600000x128_1_0_0_1 bcast_S1600000_S1600000x1_0 bcast_S_S1600000
          bcast_S1600000x1_S1600000x128_0_1 bcast_S_S100000x128
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Named.run m ρ)

end Cert.KernelIdeal.KernelValue

end
-- ==== Proof.RefValue.lean ====
/-
  The reference's result as the layer function of its arguments. The reference multiplies the node features by each
  weight matrix with a host contraction, sends each product through the sparse aggregation of its edge list, adds the
  two, and adds the bias broadcast first to one row and then down the rows. A host contraction of the second axis of the
  features with the first axis of a weight matrix is the matrix product; the two-step broadcast of the bias is "the bias
  on every row". The aggregation is applied verbatim.
-/
import proofs.«136742_j86517821211632_1_alg».proof.Proof.Gen.ReferenceIdeal.Run
import proofs.«136742_j86517821211632_1_alg».proof.Proof.Layer
import Idealize.ShloMosaic.PureOps.Ideal

noncomputable section

namespace Cert.ReferenceIdeal.RefValue

open Cert.ReferenceIdeal Cert.ReferenceIdeal.Gen
open Idealize.ShloMosaic Idealize.ShloMosaic.TcCoe Idealize.SL.Sem
open Cert.LibMatProd Cert.LibGcnLayout Cert.GraphConv

/-- Every weakly fair execution of the reference terminates with its result at the layer function of the arguments as
    launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = layer gather_S100000x128_S1600000x1_S1600000x128_1_0_n_n_0_1_1128
          scatter_S100000x128_S1600000x1_S1600000x128_1_0_0_1 bcast_S1600000_S1600000x1_0 bcast_S_S1600000
          bcast_S1600000x1_S1600000x128_0_1 bcast_S_S100000x128
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by
      rw [host_dot_eq (M := 100000) (K := 128) (N := 128) dot_S100000x128_S128x128_S100000x128_1_0_0_1_n_n rfl rfl rfl rfl rfl rfl
            (m ((c.tc : Thread nD τ).loc main_arg0)) (m ((c.tc : Thread nD τ).loc main_arg1)),
          host_dot_eq (M := 100000) (K := 128) (N := 128) dot_S100000x128_S128x128_S100000x128_1_0_0_1_n_n rfl rfl rfl rfl rfl rfl
            (m ((c.tc : Thread nD τ).loc main_arg0)) (m ((c.tc : Thread nD τ).loc main_arg2)),
          bcast_row (a := 128) (m ((c.tc : Thread nD τ).loc main_arg3)) bcast_S128_S1x128_1,
          rowBias_host (M := 100000) (N := 128) _ _ bcast_S1x128_S100000x128_0_1]
      rfl), (h c).2⟩)
    (Cert.ReferenceIdeal.Value.run (F := Ideal) m ρ)

end Cert.ReferenceIdeal.RefValue

end
-- ==== Proof.lean ====
/-
  A graph-convolution layer, tiled, against its plain reference, over the extended reals.

  Both programs compute, for node features x, weights W1 and W2, a bias b and two weighted edge lists,
      out = A₀(x·W1) + A₁(x·W2) + b on every row,
  where Aₖ sends a node-feature matrix to its sparse aggregation along edge list k (row r of the result is the sum over
  the edges into r of the edge's weight times the source node's row).

  The tiled program forms x·[W1 | W2] in one pass over ten bands of rows (narrowing the operands, which changes nothing
  on exact values), cuts the two halves out, aggregates each on the host, and adds the two and the bias in a second pass
  over ten bands. The reference multiplies twice, aggregates, and adds. The product with two matrices joined side by side is
  the two products joined side by side, because an entry's column does not depend on the summation index; so the halves are
  x·W1 and x·W2 exactly, with no rearrangement of any sum that would need finiteness. The aggregations are the same text
  applied to equal matrices, and the final sums are associated the same way. The precondition is never opened.
-/
import proofs.«136742_j86517821211632_1_alg».proof.Defs
import proofs.«136742_j86517821211632_1_alg».proof.Proof.Gen.Kernel
import proofs.«136742_j86517821211632_1_alg».proof.Proof.Gen.Kernel.Skeleton
import proofs.«136742_j86517821211632_1_alg».proof.Proof.Gen.Kernel.Launch
import proofs.«136742_j86517821211632_1_alg».proof.Proof.Gen.Kernel.Points
import proofs.«136742_j86517821211632_1_alg».proof.Proof.Gen.Kernel.Frame
import proofs.«136742_j86517821211632_1_alg».proof.Proof.Gen.KernelIdeal
import proofs.«136742_j86517821211632_1_alg».proof.Proof.Gen.KernelIdeal.Skeleton
import proofs.«136742_j86517821211632_1_alg».proof.Proof.Gen.KernelIdeal.Launch
import proofs.«136742_j86517821211632_1_alg».proof.Proof.Gen.KernelIdeal.Points
import proofs.«136742_j86517821211632_1_alg».proof.Proof.Gen.KernelIdeal.Frame
import proofs.«136742_j86517821211632_1_alg».proof.Proof.Gen.ReferenceIdeal
import proofs.«136742_j86517821211632_1_alg».proof.Proof.Gen.Pre_finite_inputs
import proofs.«136742_j86517821211632_1_alg».proof.Proof.Gen.ReferenceIdeal.Run
import proofs.«136742_j86517821211632_1_alg».proof.Proof.Gen.ReferenceIdeal.Read
import proofs.«136742_j86517821211632_1_alg».proof.Proof.KernelValue
import proofs.«136742_j86517821211632_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the layer function of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, a1, a2, a3, a4, a5, a6, a7, a8, a9]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
